-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v17)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v17) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v27) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x8192x1024 : Shape := ⟨3, ![8, 8192, 1024]⟩
abbrev S8x512 : Shape := ⟨2, ![8, 512]⟩
abbrev S1024x1024 : Shape := ⟨2, ![1024, 1024]⟩
abbrev S1024 : Shape := ⟨1, ![1024]⟩
abbrev S1024x512 : Shape := ⟨2, ![1024, 512]⟩
abbrev S_ : Shape := ⟨0, ![]⟩

class Facts : Prop where
  bcast_S_S8x8192x1024 : S_.BroadcastsInDim S8x8192x1024 (![] : Fin 0 → Fin S8x8192x1024.rank)
  reducesTo_S8x8192x1024_S_d0_1_2 : S8x8192x1024.ReducesTo [0, 1, 2] S_
  h_S_ : 0 < S_.numel
  bcast_S_S8x512 : S_.BroadcastsInDim S8x512 (![] : Fin 0 → Fin S8x512.rank)
  reducesTo_S8x512_S_d0_1 : S8x512.ReducesTo [0, 1] S_
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_
  bcast_S_S1024x512 : S_.BroadcastsInDim S1024x512 (![] : Fin 0 → Fin S1024x512.rank)
  reducesTo_S1024x512_S_d0_1 : S1024x512.ReducesTo [0, 1] S_

variable [Facts]

def fn_part1 {F : FTy → Type} [FloatOps F] (main_arg4 : FVec F S1024x512 .f32) (main_arg5 : FVec F S1024 .f32) (main_v13 : IVec S_ 1) (main_v16 : IVec S1024 1) : IVec S_ 1 :=
  let main_c_5 : IVec S_ 1 := constantI S_ 1 1#1
  let main_v17 : IVec S_ 1 := (fun x v => Host.reduce IntOp.andi x v reducesTo_S1024_S_d0 h_S_) main_v16 main_c_5
  let main_v18 : IVec S_ 1 := andi main_v13 main_v17
  let main_v19 : FVec F S1024x512 .f32 := Host.absf main_arg4
  let main_cst_6 : FVec F S_ .f32 := constant S_ .f32 0x7F800000#32
  let main_v20 : FVec F S1024x512 .f32 := broadcastInDim S1024x512 ![] bcast_S_S1024x512 main_cst_6
  let main_v21 : IVec S1024x512 1 := cmpf .olt main_v19 main_v20
  let main_c_7 : IVec S_ 1 := constantI S_ 1 1#1
  let main_v22 : IVec S_ 1 := (fun x v => Host.reduce IntOp.andi x v reducesTo_S1024x512_S_d0_1 h_S_) main_v21 main_c_7
  let main_v23 : IVec S_ 1 := andi main_v18 main_v22
  let main_v24 : FVec F S1024 .f32 := Host.absf main_arg5
  let main_cst_8 : FVec F S_ .f32 := constant S_ .f32 0x7F800000#32
  let main_v25 : FVec F S1024 .f32 := broadcastInDim S1024 ![] bcast_S_S1024 main_cst_8
  let main_v26 : IVec S1024 1 := cmpf .olt main_v24 main_v25
  let main_c_9 : IVec S_ 1 := constantI S_ 1 1#1
  let main_v27 : IVec S_ 1 := (fun x v => Host.reduce IntOp.andi x v reducesTo_S1024_S_d0 h_S_) main_v26 main_c_9
  let main_v28 : IVec S_ 1 := andi main_v23 main_v27
  main_v28

def fn {F : FTy → Type} [FloatOps F] (main_arg0 : FVec F S8x8192x1024 .f32) (main_arg1 : FVec F S8x512 .f32) (main_arg2 : FVec F S1024x1024 .f32) (main_arg3 : FVec F S1024 .f32) (main_arg4 : FVec F S1024x512 .f32) (main_arg5 : FVec F S1024 .f32) : IVec S_ 1 :=
  let main_v0 : FVec F S8x8192x1024 .f32 := Host.absf main_arg0
  let main_cst : FVec F S_ .f32 := constant S_ .f32 0x7F800000#32
  let main_v1 : FVec F S8x8192x1024 .f32 := broadcastInDim S8x8192x1024 ![] bcast_S_S8x8192x1024 main_cst
  let main_v2 : IVec S8x8192x1024 1 := cmpf .olt main_v0 main_v1
  let main_c : IVec S_ 1 := constantI S_ 1 1#1
  let main_v3 : IVec S_ 1 := (fun x v => Host.reduce IntOp.andi x v reducesTo_S8x8192x1024_S_d0_1_2 h_S_) main_v2 main_c
  let main_v4 : FVec F S8x512 .f32 := Host.absf main_arg1
  let main_cst_0 : FVec F S_ .f32 := constant S_ .f32 0x7F800000#32
  let main_v5 : FVec F S8x512 .f32 := broadcastInDim S8x512 ![] bcast_S_S8x512 main_cst_0
  let main_v6 : IVec S8x512 1 := cmpf .olt main_v4 main_v5
  let main_c_1 : IVec S_ 1 := constantI S_ 1 1#1
  let main_v7 : IVec S_ 1 := (fun x v => Host.reduce IntOp.andi x v reducesTo_S8x512_S_d0_1 h_S_) main_v6 main_c_1
  let main_v8 : IVec S_ 1 := andi main_v3 main_v7
  let main_v9 : FVec F S1024x1024 .f32 := Host.absf main_arg2
  let main_cst_2 : FVec F S_ .f32 := constant S_ .f32 0x7F800000#32
  let main_v10 : FVec F S1024x1024 .f32 := broadcastInDim S1024x1024 ![] bcast_S_S1024x1024 main_cst_2
  let main_v11 : IVec S1024x1024 1 := cmpf .olt main_v9 main_v10
  let main_c_3 : IVec S_ 1 := constantI S_ 1 1#1
  let main_v12 : IVec S_ 1 := (fun x v => Host.reduce IntOp.andi x v reducesTo_S1024x1024_S_d0_1 h_S_) main_v11 main_c_3
  let main_v13 : IVec S_ 1 := andi main_v8 main_v12
  let main_v14 : FVec F S1024 .f32 := Host.absf main_arg3
  let main_cst_4 : FVec F S_ .f32 := constant S_ .f32 0x7F800000#32
  let main_v15 : FVec F S1024 .f32 := broadcastInDim S1024 ![] bcast_S_S1024 main_cst_4
  let main_v16 : IVec S1024 1 := cmpf .olt main_v14 main_v15
  fn_part1 (F := F) main_arg4 main_arg5 main_v13 main_v16
-- ==== Kernel.lean ====
abbrev S8x8192x1024 : Shape := ⟨3, ![8, 8192, 1024]⟩
abbrev S8x512 : Shape := ⟨2, ![8, 512]⟩
abbrev S1024x1024 : Shape := ⟨2, ![1024, 1024]⟩
abbrev S1024 : Shape := ⟨1, ![1024]⟩
abbrev S1024x512 : Shape := ⟨2, ![1024, 512]⟩
abbrev S_ : Shape := ⟨0, ![]⟩
abbrev S512x1024 : Shape := ⟨2, ![512, 1024]⟩
abbrev S8x1024 : Shape := ⟨2, ![8, 1024]⟩
abbrev S1x1024 : Shape := ⟨2, ![1, 1024]⟩
abbrev S8x1x1024 : Shape := ⟨3, ![8, 1, 1024]⟩
abbrev S1x1024x1024 : Shape := ⟨3, ![1, 1024, 1024]⟩
abbrev S1x1x1024 : Shape := ⟨3, ![1, 1, 1024]⟩

abbrev nBuf : Space → Nat
  | .hbm => 26
  | .vmem => 10
  | .smem => 0
  | _ => 0

abbrev bufTy : (tb : Table) → Fin (tcTables nBuf tb) → BufTy
  | .hbm, ⟨0, _⟩ => ⟨S8x8192x1024, .f32⟩
  | .hbm, ⟨1, _⟩ => ⟨S8x512, .f32⟩
  | .hbm, ⟨2, _⟩ => ⟨S1024x1024, .f32⟩
  | .hbm, ⟨3, _⟩ => ⟨S1024, .f32⟩
  | .hbm, ⟨4, _⟩ => ⟨S1024x512, .f32⟩
  | .hbm, ⟨5, _⟩ => ⟨S1024, .f32⟩
  | .hbm, ⟨6, _⟩ => ⟨S_, .f32⟩
  | .hbm, ⟨7, _⟩ => ⟨S1024x512, .f32⟩
  | .hbm, ⟨8, _⟩ => ⟨S1024x512, .f32⟩
  | .hbm, ⟨9, _⟩ => ⟨S512x1024, .f32⟩
  | .hbm, ⟨10, _⟩ => ⟨S8x1024, .f32⟩
  | .hbm, ⟨11, _⟩ => ⟨S1x1024, .f32⟩
  | .hbm, ⟨12, _⟩ => ⟨S8x1024, .f32⟩
  | .hbm, ⟨13, _⟩ => ⟨S8x1024, .f32⟩
  | .hbm, ⟨14, _⟩ => ⟨S1024x1024, .f32⟩
  | .hbm, ⟨15, _⟩ => ⟨S8x1024, .f32⟩
  | .hbm, ⟨16, _⟩ => ⟨S8x1024, .f32⟩
  | .hbm, ⟨17, _⟩ => ⟨S_, .f32⟩
  | .hbm, ⟨18, _⟩ => ⟨S8x1024, .f32⟩
  | .hbm, ⟨19, _⟩ => ⟨S8x1024, .f32⟩
  | .hbm, ⟨20, _⟩ => ⟨S8x1024, .f32⟩
  | .hbm, ⟨21, _⟩ => ⟨S1024x1024, .f32⟩
  | .hbm, ⟨22, _⟩ => ⟨S1024x1024, .bf16⟩
  | .hbm, ⟨23, _⟩ => ⟨S8x1x1024, .f32⟩
  | .hbm, ⟨24, _⟩ => ⟨S8x1x1024, .f32⟩
  | .hbm, ⟨25, _⟩ => ⟨S8x8192x1024, .f32⟩
  | .local _ .vmem, ⟨0, _⟩ => ⟨S1x1024x1024, .f32⟩
  | .local _ .vmem, ⟨1, _⟩ => ⟨S1x1024x1024, .f32⟩
  | .local _ .vmem, ⟨2, _⟩ => ⟨S1x1x1024, .f32⟩
  | .local _ .vmem, ⟨3, _⟩ => ⟨S1x1x1024, .f32⟩
  | .local _ .vmem, ⟨4, _⟩ => ⟨S1024x1024, .bf16⟩
  | .local _ .vmem, ⟨5, _⟩ => ⟨S1x1x1024, .f32⟩
  | .local _ .vmem, ⟨6, _⟩ => ⟨S1x1x1024, .f32⟩
  | .local _ .vmem, ⟨7, _⟩ => ⟨S1024, .f32⟩
  | .local _ .vmem, ⟨8, _⟩ => ⟨S1x1024x1024, .f32⟩
  | .local _ .vmem, ⟨9, _⟩ => ⟨S1x1024x1024, .f32⟩
  | _, _ => ⟨S8x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_0 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![8, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

class Facts₀ : Prop where
  bcast_S_S1024x512 : S_.BroadcastsInDim S1024x512 (![] : Fin 0 → Fin S1024x512.rank)
  transposes_S1024x512_S512x1024_1_0 : S1024x512.Transposes [1, 0] S512x1024
  bcast_S1024_S1x1024_1 : S1024.BroadcastsInDim S1x1024 (![1] : Fin 1 → Fin S1x1024.rank)
  bcast_S1x1024_S8x1024_0_1 : S1x1024.BroadcastsInDim S8x1024 (![0, 1] : Fin 2 → Fin S8x1024.rank)
  bcast_S_S8x1024 : S_.BroadcastsInDim S8x1024 (![] : Fin 0 → Fin S8x1024.rank)
  transposes_S1024x1024_S1024x1024_1_0 : S1024x1024.Transposes [1, 0] S1024x1024
  bitsLt_bf16_f32 : FTy.bits .bf16 < FTy.bits .f32
  bcast_S8x1024_S8x1x1024_0_2 : S8x1024.BroadcastsInDim S8x1x1024 (![0, 2] : Fin 2 → Fin S8x1x1024.rank)
  inb_S1x1024x1024_S1x1024x1024_0_0_0 : ∀ a, (![0, 0, 0] : Fin 3 → Nat) a + S1x1024x1024.size a ≤ S1x1024x1024.size a
  h_S1x1024x1024 : 0 < S1x1024x1024.numel
  shapeCasts_S1x1024x1024_S1024x1024 : S1x1024x1024.ShapeCasts S1024x1024
  inb_S1x1x1024_S1x1x1024_0_0_0 : ∀ a, (![0, 0, 0] : Fin 3 → Nat) a + S1x1x1024.size a ≤ S1x1x1024.size a
  h_S1x1x1024 : 0 < S1x1x1024.numel
  shapeCasts_S1x1x1024_S1x1024 : S1x1x1024.ShapeCasts S1x1024
  broadcasts_S1x1024_S1024x1024 : S1x1024.Broadcasts S1024x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1024_S1024_0 : ∀ a, (![0] : Fin 1 → Nat) a + S1024.size a ≤ S1024.size a
  h_S1024 : 0 < S1024.numel
  shapeCasts_S1024_S1x1024 : S1024.ShapeCasts S1x1024
  shapeCasts_S1024x1024_S1x1024x1024 : S1024x1024.ShapeCasts S1x1024x1024
  dot_S8x512_S512x1024_S8x1024_1_0_0_1_n_n_wf : DotDims.WF S8x512 S512x1024 S8x1024 [1] [0] [0] [1] [] []
  dot_S8x1024_S1024x1024_S8x1024_1_1_0_0_n_n_wf : DotDims.WF S8x1024 S1024x1024 S8x1024 [1] [1] [0] [0] [] []
  dot_S1024x1024_S1024x1024_S1024x1024_1_0_0_1_n_n_wf : DotDims.WF S1024x1024 S1024x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1024x1024.size a ≤ S8x8192x1024.size a
  hwx0_0 : ∀ i : grid0.Coords, EltTy.bits .f32 = 32 ∨ (Rect.block (s := S8x8192x1024) S1x1024x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1x1024.size a ≤ S8x1x1024.size a
  hwx0_1 : ∀ i : grid0.Coords, EltTy.bits .f32 = 32 ∨ (Rect.block (s := S8x1x1024) S1x1x1024.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1024x1024.size a ≤ S1024x1024.size a
  hwx0_2 : ∀ i : grid0.Coords, EltTy.bits .bf16 = 32 ∨ (Rect.block (s := S1024x1024) S1024x1024.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1x1024.size a ≤ S8x1x1024.size a
  hwx0_3 : ∀ i : grid0.Coords, EltTy.bits .f32 = 32 ∨ (Rect.block (s := S8x1x1024) S1x1x1024.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1024.size a ≤ S1024.size a
  hwx0_4 : ∀ i : grid0.Coords, EltTy.bits .f32 = 32 ∨ (Rect.block (s := S1024) S1024.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x1024x1024.size a ≤ S8x8192x1024.size a
  hwx0_5 : ∀ i : grid0.Coords, EltTy.bits .f32 = 32 ∨ (Rect.block (s := S8x8192x1024) S1x1024x1024.size (cc0_transform_5 i) (hinb0_5 i)).WholeWords (EltTy.packing .f32)

variable [Facts₀]

def dot_S8x512_S512x1024_S8x1024_1_0_0_1_n_n : DotDims S8x512 S512x1024 S8x1024 where
  lhsContracting := [1]
  rhsContracting := [0]
  lhsNonContracting := [0]
  rhsNonContracting := [1]
  lhsBatch := []
  rhsBatch := []
  wf := dot_S8x512_S512x1024_S8x1024_1_0_0_1_n_n_wf
def dot_S8x1024_S1024x1024_S8x1024_1_1_0_0_n_n : DotDims S8x1024 S1024x1024 S8x1024 where
  lhsContracting := [1]
  rhsContracting := [1]
  lhsNonContracting := [0]
  rhsNonContracting := [0]
  lhsBatch := []
  rhsBatch := []
  wf := dot_S8x1024_S1024x1024_S8x1024_1_1_0_0_n_n_wf
def dot_S1024x1024_S1024x1024_S1024x1024_1_0_0_1_n_n : DotDims S1024x1024 S1024x1024 S1024x1024 where
  lhsContracting := [1]
  rhsContracting := [0]
  lhsNonContracting := [0]
  rhsNonContracting := [1]
  lhsBatch := []
  rhsBatch := []
  wf := dot_S1024x1024_S1024x1024_S1024x1024_1_0_0_1_n_n_wf

abbrev win0_0 : Pipeline.Window sig grid0 :=
  Pipeline.Window.ofSpec (Memref.whole main_arg0) S1x1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v15) S1x1x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v14) S1024x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v16) S1x1x1024.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg3) S1024.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v17) S1x1024x1024.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S8x8192x1024 : Shape := ⟨3, ![8, 8192, 1024]⟩
abbrev S8x512 : Shape := ⟨2, ![8, 512]⟩
abbrev S1024x1024 : Shape := ⟨2, ![1024, 1024]⟩
abbrev S1024 : Shape := ⟨1, ![1024]⟩
abbrev S1024x512 : Shape := ⟨2, ![1024, 512]⟩
abbrev S_ : Shape := ⟨0, ![]⟩
abbrev S512x1024 : Shape := ⟨2, ![512, 1024]⟩
abbrev S8x1024 : Shape := ⟨2, ![8, 1024]⟩
abbrev S1x1024 : Shape := ⟨2, ![1, 1024]⟩
abbrev S1x1024x1024 : Shape := ⟨3, ![1, 1024, 1024]⟩
abbrev S8x1x1024 : Shape := ⟨3, ![8, 1, 1024]⟩
abbrev S8x1024x1024 : Shape := ⟨3, ![8, 1024, 1024]⟩
abbrev S1x1x1024 : Shape := ⟨3, ![1, 1, 1024]⟩

abbrev nBuf : Space → Nat
  | .hbm => 44
  | .vmem => 0
  | .smem => 0
  | _ => 0

abbrev bufTy : (tb : Table) → Fin (tcTables nBuf tb) → BufTy
  | .hbm, ⟨0, _⟩ => ⟨S8x8192x1024, .f32⟩
  | .hbm, ⟨1, _⟩ => ⟨S8x512, .f32⟩
  | .hbm, ⟨2, _⟩ => ⟨S1024x1024, .f32⟩
  | .hbm, ⟨3, _⟩ => ⟨S1024, .f32⟩
  | .hbm, ⟨4, _⟩ => ⟨S1024x512, .f32⟩
  | .hbm, ⟨5, _⟩ => ⟨S1024, .f32⟩
  | .hbm, ⟨6, _⟩ => ⟨S_, .f32⟩
  | .hbm, ⟨7, _⟩ => ⟨S1024x512, .f32⟩
  | .hbm, ⟨8, _⟩ => ⟨S1024x512, .f32⟩
  | .hbm, ⟨9, _⟩ => ⟨S512x1024, .f32⟩
  | .hbm, ⟨10, _⟩ => ⟨S8x1024, .f32⟩
  | .hbm, ⟨11, _⟩ => ⟨S1x1024, .f32⟩
  | .hbm, ⟨12, _⟩ => ⟨S8x1024, .f32⟩
  | .hbm, ⟨13, _⟩ => ⟨S8x1024, .f32⟩
  | .hbm, ⟨14, _⟩ => ⟨S1x1024x1024, .f32⟩
  | .hbm, ⟨15, _⟩ => ⟨S8x1x1024, .f32⟩
  | .hbm, ⟨16, _⟩ => ⟨S8x1024x1024, .f32⟩
  | .hbm, ⟨17, _⟩ => ⟨S8x1024x1024, .f32⟩
  | .hbm, ⟨18, _⟩ => ⟨S8x1024x1024, .f32⟩
  | .hbm, ⟨19, _⟩ => ⟨S8x1024x1024, .f32⟩
  | .hbm, ⟨20, _⟩ => ⟨S_, .f32⟩
  | .hbm, ⟨21, _⟩ => ⟨S8x1024, .f32⟩
  | .hbm, ⟨22, _⟩ => ⟨S_, .f32⟩
  | .hbm, ⟨23, _⟩ => ⟨S8x1024, .f32⟩
  | .hbm, ⟨24, _⟩ => ⟨S8x1024, .f32⟩
  | .hbm, ⟨25, _⟩ => ⟨S8x1024, .f32⟩
  | .hbm, ⟨26, _⟩ => ⟨S8x1x1024, .f32⟩
  | .hbm, ⟨27, _⟩ => ⟨S8x8192x1024, .f32⟩
  | .hbm, ⟨28, _⟩ => ⟨S8x8192x1024, .f32⟩
  | .hbm, ⟨29, _⟩ => ⟨S8x8192x1024, .f32⟩
  | .hbm, ⟨30, _⟩ => ⟨S8x1x1024, .f32⟩
  | .hbm, ⟨31, _⟩ => ⟨S8x8192x1024, .f32⟩
  | .hbm, ⟨32, _⟩ => ⟨S8x8192x1024, .f32⟩
  | .hbm, ⟨33, _⟩ => ⟨S1x1x1024, .f32⟩
  | .hbm, ⟨34, _⟩ => ⟨S8x8192x1024, .f32⟩
  | .hbm, ⟨35, _⟩ => ⟨S8x8192x1024, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S8x8192x1024, .f32⟩
  | .hbm, ⟨40, _⟩ => ⟨S8x8192x1024, .f32⟩
  | .hbm, ⟨41, _⟩ => ⟨S_, .f32⟩
  | .hbm, ⟨42, _⟩ => ⟨S8x8192x1024, .f32⟩
  | .hbm, ⟨43, _⟩ => ⟨S8x8192x1024, .f32⟩
  | _, _ => ⟨S8x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst_0 : Ref sig .tc := ⟨.hbm, 20, rfl⟩
abbrev main_v13 : Ref sig .tc := ⟨.hbm, 21, rfl⟩
abbrev main_cst_1 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_cst_2 : Ref sig .tc := ⟨.hbm, 36, rfl⟩
abbrev main_cst_3 : Ref sig .tc := ⟨.hbm, 37, rfl⟩
abbrev main_call0_v0 : Ref sig .tc := ⟨.hbm, 38, rfl⟩
abbrev main_call0_v1 : Ref sig .tc := ⟨.hbm, 39, rfl⟩
abbrev main_call0_v2 : Ref sig .tc := ⟨.hbm, 40, rfl⟩
abbrev main_call0_v3 : Ref sig .tc := ⟨.hbm, 41, rfl⟩
abbrev main_call0_v4 : Ref sig .tc := ⟨.hbm, 42, rfl⟩
abbrev main_v27 : Ref sig .tc := ⟨.hbm, 43, rfl⟩

abbrev nD : Nat := 1
abbrev τ : Topo := Topo.v7x

variable {F : FTy → Type} [FloatOps F]

class Facts₀ : Prop where
  bcast_S_S1024x512 : S_.BroadcastsInDim S1024x512 (![] : Fin 0 → Fin S1024x512.rank)
  transposes_S1024x512_S512x1024_1_0 : S1024x512.Transposes [1, 0] S512x1024
  bcast_S1024_S1x1024_1 : S1024.BroadcastsInDim S1x1024 (![1] : Fin 1 → Fin S1x1024.rank)
  bcast_S1x1024_S8x1024_0_1 : S1x1024.BroadcastsInDim S8x1024 (![0, 1] : Fin 2 → Fin S8x1024.rank)
  bcast_S1024x1024_S1x1024x1024_1_2 : S1024x1024.BroadcastsInDim S1x1024x1024 (![1, 2] : Fin 2 → Fin S1x1024x1024.rank)
  bcast_S8x1024_S8x1x1024_0_2 : S8x1024.BroadcastsInDim S8x1x1024 (![0, 2] : Fin 2 → Fin S8x1x1024.rank)
  bcast_S1x1024x1024_S8x1024x1024_0_1_2 : S1x1024x1024.BroadcastsInDim S8x1024x1024 (![0, 1, 2] : Fin 3 → Fin S8x1024x1024.rank)
  bcast_S8x1x1024_S8x1024x1024_0_1_2 : S8x1x1024.BroadcastsInDim S8x1024x1024 (![0, 1, 2] : Fin 3 → Fin S8x1024x1024.rank)
  reducesTo_S8x1024x1024_S8x1024_d2 : S8x1024x1024.ReducesTo [2] S8x1024
  h_S_ : 0 < S_.numel
  bcast_S_S8x1024 : S_.BroadcastsInDim S8x1024 (![] : Fin 0 → Fin S8x1024.rank)
  bcast_S8x1x1024_S8x8192x1024_0_1_2 : S8x1x1024.BroadcastsInDim S8x8192x1024 (![0, 1, 2] : Fin 3 → Fin S8x8192x1024.rank)
  bcast_S1024_S1x1x1024_2 : S1024.BroadcastsInDim S1x1x1024 (![2] : Fin 1 → Fin S1x1x1024.rank)
  bcast_S1x1x1024_S8x8192x1024_0_1_2 : S1x1x1024.BroadcastsInDim S8x8192x1024 (![0, 1, 2] : Fin 3 → Fin S8x8192x1024.rank)
  bcast_S_S8x8192x1024 : S_.BroadcastsInDim S8x8192x1024 (![] : Fin 0 → Fin S8x8192x1024.rank)
  dot_S8x512_S512x1024_S8x1024_1_0_0_1_n_n_wf : DotDims.WF S8x512 S512x1024 S8x1024 [1] [0] [0] [1] [] []
  dot_S8x8192x1024_S1024x1024_S8x8192x1024_2_1_01_0_n_n_wf : DotDims.WF S8x8192x1024 S1024x1024 S8x8192x1024 [2] [1] [0, 1] [0] [] []

variable [Facts₀]

def dot_S8x512_S512x1024_S8x1024_1_0_0_1_n_n : DotDims S8x512 S512x1024 S8x1024 where
  lhsContracting := [1]
  rhsContracting := [0]
  lhsNonContracting := [0]
  rhsNonContracting := [1]
  lhsBatch := []
  rhsBatch := []
  wf := dot_S8x512_S512x1024_S8x1024_1_0_0_1_n_n_wf
def dot_S8x8192x1024_S1024x1024_S8x8192x1024_2_1_01_0_n_n : DotDims S8x8192x1024 S1024x1024 S8x8192x1024 where
  lhsContracting := [2]
  rhsContracting := [1]
  lhsNonContracting := [0, 1]
  rhsNonContracting := [0]
  lhsBatch := []
  rhsBatch := []
  wf := dot_S8x8192x1024_S1024x1024_S8x8192x1024_2_1_01_0_n_n_wf

class Facts : Prop extends Facts₀ where

variable [Facts]
-- ==== Proof.Spec.lean ====
/-
  The layer that both programs compute, written once on the extended reals.

  Inputs: an activation tensor `x[b, l, c]` (8 × 8192 × 1024), a per-sample style vector `s[b, c]` (8 × 1024), a weight
  matrix `w[o, c]` (1024 × 1024) and a bias `β[o]`. The activations are modulated by the style, multiplied by the weight
  matrix along the channel axis, rescaled per sample and output channel by a demodulation coefficient, shifted by the bias
  and clamped to [-256, 256]:

    d[b, o]   = rsqrt( Σ_c s[b,c]² · w[o,c]²  +  ε )
    y[b,l,o]  = clamp( (Σ_c (x[b,l,c] · s[b,c]) · w[o,c]) · d[b,o] + β[o] )

  The one place where the two programs differ is how the sum under the square root is arranged: one squares the style and
  the weight separately and contracts them, the other squares the product `w[o,c] · s[b,c]` and adds the squares up from
  zero. `sum_sq_of_prod` is the law joining them; it uses only that multiplication of extended reals is commutative and
  associative, so it holds at the infinities as well and needs no finiteness of the inputs.
-/
import Idealize.ShloMosaic.PureOps.Ideal
import Idealize.ShloMosaic.Lib.ValueIdx

noncomputable section

namespace Cert.ModulatedDense

open Idealize.ShloMosaic Idealize.ShloMosaic.ValueIdx

/-- The demodulation coefficient of sample `b` and output channel `o`: the reciprocal square root of ε plus the sum over
    the input channels of style squared times weight squared. -/
def demod (s : (⟨2, ![8, 1024]⟩ : Shape).Idx → EReal) (w : (⟨2, ![1024, 1024]⟩ : Shape).Idx → EReal)
    (b : Fin 8) (o : Fin 1024) : EReal :=
  Ideal.rsqrt ((∑ k : Fin 1024, s (ix2 b k) * s (ix2 b k) * (w (ix2 o k) * w (ix2 o k))) + Ideal.ofBits .f32 0x322BCC77#32)

/-- The layer's output at `(b, l, o)`: the modulated activations contracted with row `o` of the weight matrix, times the
    demodulation coefficient, plus the bias, clamped below at -256 and above at 256. -/
def layer (x : (⟨3, ![8, 8192, 1024]⟩ : Shape).Idx → EReal) (s : (⟨2, ![8, 1024]⟩ : Shape).Idx → EReal)
    (w : (⟨2, ![1024, 1024]⟩ : Shape).Idx → EReal) (β : (⟨1, ![1024]⟩ : Shape).Idx → EReal) :
    (⟨3, ![8, 8192, 1024]⟩ : Shape).Idx → EReal :=
  fun i => min (Ideal.ofBits .f32 0x43800000#32) (max (Ideal.ofBits .f32 0xC3800000#32)
    ((∑ k : Fin 1024, x (ix3 (i 0) (i 1) k) * s (ix2 (i 0) k) * w (ix2 (i 2) k)) * demod s w (i 0) (i 2) + β (ix1 (i 2))))

/-- The layer's output read at an index given by its three coordinates. -/
theorem layer_apply (x : (⟨3, ![8, 8192, 1024]⟩ : Shape).Idx → EReal) (s : (⟨2, ![8, 1024]⟩ : Shape).Idx → EReal)
    (w : (⟨2, ![1024, 1024]⟩ : Shape).Idx → EReal) (β : (⟨1, ![1024]⟩ : Shape).Idx → EReal)
    (b : Fin 8) (l : Fin 8192) (o : Fin 1024) :
    layer x s w β (ix3 b l o) = min (Ideal.ofBits .f32 0x43800000#32) (max (Ideal.ofBits .f32 0xC3800000#32)
      ((∑ k : Fin 1024, x (ix3 b l k) * s (ix2 b k) * w (ix2 o k)) * demod s w b o + β (ix1 o))) := rfl

/-- Squares of products added up from zero are the products of the squares added up: `(w·s)·(w·s) = (s·s)·(w·w)` term by
    term, by commutativity and associativity of the product alone. -/
theorem sum_sq_of_prod {ι : Type} [Fintype ι] (s w : ι → EReal) :
    (0 : EReal) + ∑ k, w k * s k * (w k * s k) = ∑ k, s k * s k * (w k * w k) := by
  rw [zero_add]
  refine Finset.sum_congr rfl fun k _ => ?_
  rw [mul_mul_mul_comm, mul_comm (w k * w k)]

end Cert.ModulatedDense

end
-- ==== Proof.RefValue.lean ====
/-
  The reference program computes the layer of Spec.lean.

  Its result is read one operation at a time (the generated read-at-an-index lemmas), from the final clamp down to the
  style projection, which is left unopened: the style array `s` enters the layer as a whole. Along the way every composed
  index function is identified with plain coordinates: the contraction of the large product runs over the channel `k` at
  `x[b, l, k]`, `s[b, k]` and `w[o, k]`; the sum under the square root runs over `k` at `w[o, k]` and `s[b, k]`. That sum is
  taken over the squares of the products `w[o,k] · s[b,k]`, from zero; `sum_sq_of_prod` rearranges it into the layer's form.
-/
import proofs.«145355_j30176440222298_2_alg».proof.Proof.Gen.ReferenceIdeal.Read
import proofs.«145355_j30176440222298_2_alg».proof.Proof.Spec

noncomputable section

namespace Cert.ReferenceIdeal.RefValue

open Cert.ReferenceIdeal Cert.ReferenceIdeal.Gen Cert.ReferenceIdeal.Read Idealize.ShloMosaic Idealize.ShloMosaic.ValueIdx
open Cert.ModulatedDense

/-- The reference's result array is the layer of the activations, the style array (its own stage, unopened), the weight
    matrix and the bias. -/
theorem result_eq_layer (x0 : S8x8192x1024.Idx → EReal) (x1 : S8x512.Idx → EReal) (x2 : S1024x1024.Idx → EReal)
    (x3 : S1024.Idx → EReal) (x4 : S1024x512.Idx → EReal) (x5 : S1024.Idx → EReal) :
    val_main_v27 (F := Ideal) x0 x1 x2 x3 x4 x5 = layer x0 (val_main_v6 (F := Ideal) x1 x4 x5) x2 x3 := by
  funext i
  obtain ⟨b, l, o, rfl⟩ : ∃ (b : Fin 8) (l : Fin 8192) (o : Fin 1024), i = ix3 b l o := ⟨i 0, i 1, i 2, eq_ix3 i⟩
  -- the composed index functions, in coordinates
  have ex : ∀ k : Fin 1024, lidx_main_v20 (ix3 b l o) k = ix3 b l k := fun k => funext fun a => Fin.ext (by
    match a with | ⟨0, _⟩ => rfl | ⟨1, _⟩ => rfl | ⟨2, _⟩ => rfl)
  have es : ∀ k : Fin 1024, idx_main_v17 (idx_main_v18 (ix3 b l k)) = ix2 b k := fun k => funext fun a => Fin.ext (by
    match a with | ⟨0, _⟩ => rfl | ⟨1, _⟩ => rfl)
  have ew : ∀ k : Fin 1024, ridx_main_v20 (ix3 b l o) k = ix2 o k := fun k => funext fun a => Fin.ext (by
    match a with | ⟨0, _⟩ => rfl | ⟨1, _⟩ => rfl)
  have ew' : ∀ k : Fin 1024, idx_main_v7 (idx_main_v9 (idx_main_v13 (idx_main_v21 (idx_main_v22 (ix3 b l o))) k)) = ix2 o k :=
    fun k => funext fun a => Fin.ext (by match a with | ⟨0, _⟩ => rfl | ⟨1, _⟩ => rfl)
  have es' : ∀ k : Fin 1024, idx_main_v8 (idx_main_v10 (idx_main_v13 (idx_main_v21 (idx_main_v22 (ix3 b l o))) k)) = ix2 b k :=
    fun k => funext fun a => Fin.ext (by match a with | ⟨0, _⟩ => rfl | ⟨1, _⟩ => rfl)
  have eβ : idx_main_v24 (idx_main_v25 (ix3 b l o)) = ix1 o := funext fun a => Fin.ext (by
    match a with | ⟨0, _⟩ => rfl)
  rw [val_main_v27_apply, val_main_call0_v4_apply, val_main_call0_v3_apply, val_main_cst_3_apply, val_main_call0_v2_apply,
    val_main_call0_v1_apply, val_main_call0_v0_apply, val_main_cst_2_apply, val_main_v26_apply, val_main_v23_apply,
    val_main_v20_apply, val_main_v22_apply, val_main_v21_apply, val_main_v16_apply, val_main_v15_apply, val_main_v13_apply,
    val_main_v14_apply, val_main_cst_1_apply, val_main_cst_0_apply, val_main_v25_apply, val_main_v24_apply]
  simp only [val_main_v19_apply, val_main_v18_apply, val_main_v17_apply, val_main_v12_apply, val_main_v11_apply,
    val_main_v9_apply, val_main_v7_apply, val_main_v10_apply, val_main_v8_apply, ex, es, ew, ew', es', eβ]
  rw [layer_apply]
  unfold demod
  simp only [Ideal.minimumf_def, Ideal.maximumf_def, Ideal.addf_def, Ideal.mulf_def, Ideal.ofBits_def,
    Ideal.hostUnary_rsqrt_def, Ideal.ofBits_zero_f32]
  rw [sum_sq_of_prod (fun k => val_main_v6 (F := Ideal) x1 x4 x5 (ix2 b k)) (fun k => x2 (ix2 o k))]

end Cert.ReferenceIdeal.RefValue

end
-- ==== Proof.Payload.lean ====
/-
  What one grid step stores, read at an index.

  A grid step holds a block `X` of 1024 rows of the activations (one sample, 1024 positions, all channels), that sample's
  style row `s`, the whole transposed weight matrix `T` (`T[c, o] = w[o, c]`), that sample's row `d` of demodulation
  coefficients and the bias `β`, and stores, at row `r` and output channel `o`,

      clamp( (Σ_c (X[r, c] · s[c]) · T[c, o]) · d[o] + β[o] ).

  The rounding of the modulated block to a narrower float format before the product is the identity on extended reals, the
  product into a zero accumulator is the plain sum over the contracted channel, and the reshapes and row broadcasts only
  rename coordinates.
-/
import proofs.«145355_j30176440222298_2_alg».proof.Proof.Gen.KernelIdeal.Skeleton
import proofs.«145355_j30176440222298_2_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Body

open Cert.KernelIdeal Cert.KernelIdeal.Gen Idealize.ShloMosaic Idealize.ShloMosaic.ValueIdx Cert.ModulatedDense

/-- The left operand's row coordinate at an output index is the output's row. -/
theorem lhs_row (i : S1024x1024.Idx) (q : dot_S1024x1024_S1024x1024_S1024x1024_1_0_0_1_n_n.contr.Idx) :
    (dot_S1024x1024_S1024x1024_S1024x1024_1_0_0_1_n_n.lhsIdx i q 0).val = (i 0).val := by
  unfold DotDims.lhsIdx
  rw [dif_neg (show ¬(0 : Fin S1024x1024.rank) ∈ dot_S1024x1024_S1024x1024_S1024x1024_1_0_0_1_n_n.lhsBatch by decide),
    dif_pos (show (0 : Fin S1024x1024.rank) ∈ dot_S1024x1024_S1024x1024_S1024x1024_1_0_0_1_n_n.lhsNonContracting by decide)]
  rfl

/-- The right operand's column coordinate at an output index is the output's column. -/
theorem rhs_col (i : S1024x1024.Idx) (q : dot_S1024x1024_S1024x1024_S1024x1024_1_0_0_1_n_n.contr.Idx) :
    (dot_S1024x1024_S1024x1024_S1024x1024_1_0_0_1_n_n.rhsIdx i q 1).val = (i 1).val := by
  unfold DotDims.rhsIdx
  rw [dif_neg (show ¬(1 : Fin S1024x1024.rank) ∈ dot_S1024x1024_S1024x1024_S1024x1024_1_0_0_1_n_n.rhsBatch by decide),
    dif_pos (show (1 : Fin S1024x1024.rank) ∈ dot_S1024x1024_S1024x1024_S1024x1024_1_0_0_1_n_n.rhsNonContracting by decide)]
  rfl

/-- The block product into a zero accumulator, read at `(r, o)`: the sum over the contracted channel `k` of
    `A[r, k] · B[k, o]`. -/
theorem product_apply (A B : FVec Ideal S1024x1024 .bf16) (r o : Fin 1024) :
    matmul dot_S1024x1024_S1024x1024_S1024x1024_1_0_0_1_n_n none A B (constant (F := Ideal) S1024x1024 .f32 0x00000000#32) (ix2 r o)
      = ∑ k : Fin 1024, A (ix2 r k) * B (ix2 k o) := by
  simp only [matmul]
  rw [Ideal.matmul_constant_zero_apply,
    ← Equiv.sum_comp (ValueIdx.contrEquiv1 dot_S1024x1024_S1024x1024_S1024x1024_1_0_0_1_n_n 1024 rfl rfl).symm]
  refine Finset.sum_congr rfl fun k _ => ?_
  have hk := ValueIdx.contrEquiv1_symm_val dot_S1024x1024_S1024x1024_S1024x1024_1_0_0_1_n_n 1024 rfl rfl k
  have el : dot_S1024x1024_S1024x1024_S1024x1024_1_0_0_1_n_n.lhsIdx (ix2 r o)
      ((ValueIdx.contrEquiv1 dot_S1024x1024_S1024x1024_S1024x1024_1_0_0_1_n_n 1024 rfl rfl).symm k) = ix2 r k :=
    funext fun a => Fin.ext (by
      match a with
      | ⟨0, _⟩ => exact lhs_row _ _
      | ⟨1, _⟩ => exact (dot_S1024x1024_S1024x1024_S1024x1024_1_0_0_1_n_n.lhsIdx_val_of_single rfl _ _).trans hk)
  have er : dot_S1024x1024_S1024x1024_S1024x1024_1_0_0_1_n_n.rhsIdx (ix2 r o)
      ((ValueIdx.contrEquiv1 dot_S1024x1024_S1024x1024_S1024x1024_1_0_0_1_n_n 1024 rfl rfl).symm k) = ix2 k o :=
    funext fun a => Fin.ext (by
      match a with
      | ⟨0, _⟩ => exact (dot_S1024x1024_S1024x1024_S1024x1024_1_0_0_1_n_n.rhsIdx_val_of_single rfl _ _).trans hk
      | ⟨1, _⟩ => exact rhs_col _ _)
  rw [el, er]

/-- The value a grid step stores, at unit coordinate `u`, row `r` and output channel `o`, from the five blocks it loads. -/
theorem stored_apply (X : Vec Ideal S1x1024x1024 .f32) (s : Vec Ideal S1x1x1024 .f32) (T : Vec Ideal S1024x1024 .bf16)
    (d : Vec Ideal S1x1x1024 .f32) (β : Vec Ideal S1024 .f32) (u : Fin 1) (r o : Fin 1024) :
    k0_pay1 X s T d β (ix3 u r o)
      = min (Ideal.ofBits .f32 0x43800000#32) (max (Ideal.ofBits .f32 0xC3800000#32)
          ((∑ k : Fin 1024, X (ix3 (0 : Fin 1) r k) * s (ix3 (0 : Fin 1) (0 : Fin 1) k) * T (ix2 k o))
            * d (ix3 (0 : Fin 1) (0 : Fin 1) o) + β (ix1 o))) := by
  unfold k0_pay1
  rw [shapeCast_ab_1ab_apply]
  simp only [minimumf_apply, maximumf_apply, broadcast_apply, addf_apply, mulf_apply, product_apply, truncf_apply,
    broadcastTo_1b_ab_apply, shapeCast_1ab_ab_apply, shapeCast_a_1a_apply, shapeCast_self]
  rfl

/-- When the five blocks hold the right pieces of whole arrays — the activations of sample `b` at position `l`, that
    sample's style row, the weights transposed, that sample's demodulation coefficient and the bias — the stored value
    is the layer of those arrays at `(b, l, o)`. -/
theorem stored_eq_layer (X : Vec Ideal S1x1024x1024 .f32) (s : Vec Ideal S1x1x1024 .f32) (T : Vec Ideal S1024x1024 .bf16)
    (d : Vec Ideal S1x1x1024 .f32) (β : Vec Ideal S1024 .f32)
    (x : S8x8192x1024.Idx → EReal) (sty : S8x1024.Idx → EReal) (w : S1024x1024.Idx → EReal) (bias : S1024.Idx → EReal)
    (u : Fin 1) (r o : Fin 1024) (b : Fin 8) (l : Fin 8192)
    (hX : ∀ k : Fin 1024, X (ix3 (0 : Fin 1) r k) = x (ix3 b l k))
    (hs : ∀ k : Fin 1024, s (ix3 (0 : Fin 1) (0 : Fin 1) k) = sty (ix2 b k))
    (hT : ∀ k : Fin 1024, T (ix2 k o) = w (ix2 o k))
    (hd : d (ix3 (0 : Fin 1) (0 : Fin 1) o) = demod sty w b o)
    (hβ : β (ix1 o) = bias (ix1 o)) :
    k0_pay1 X s T d β (ix3 u r o) = layer x sty w bias (ix3 b l o) := by
  rw [stored_apply, layer_apply, hd, hβ]
  simp only [hX, hs, hT]

end Cert.KernelIdeal.Body

end
-- ==== Proof.HostSide.lean ====
/-
  What the grid finds in the three arrays the program prepares before it.

  Before the grid runs, the program computes the style array `s[b, c]` (a projection of the latent vectors; its formula is
  not needed here, only that it is the same array the reference computes, so it is carried as one name), and from it and
  the weight matrix three arrays the grid reads:

    * the style array with a unit middle axis:           `S[b, 0, c] = s[b, c]`;
    * the weight matrix transposed (and narrowed, which is the identity on extended reals):  `T[c, o] = w[o, c]`;
    * the demodulation coefficients with a unit middle axis:
          `D[b, 0, o] = rsqrt( Σ_c (s[b,c] · s[b,c]) · (w[o,c] · w[o,c]) + ε )`,
      the contraction of the squared styles with the squared weights along the channel axis of both.
-/
import proofs.«145355_j30176440222298_2_alg».proof.Proof.Gen.KernelIdeal.Frame
import proofs.«145355_j30176440222298_2_alg».proof.Proof.Gen.ReferenceIdeal.Read
import proofs.«145355_j30176440222298_2_alg».proof.Proof.Spec
import Idealize.ShloMosaic.Lib.StableHlo.Run
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.HostSide

open Cert.KernelIdeal Cert.KernelIdeal.Gen Idealize.ShloMosaic Idealize.ShloMosaic.TcCoe Idealize.SL.Sem
open Idealize.ShloMosaic.StableHlo Idealize.ShloMosaic.ValueIdx Cert.ModulatedDense

variable (m : (ℓ : Loc nD τ sig) → Buf (Elt Ideal) ℓ)

/-- The style array on core `c`: the reference's own style stage, of this program's latent, projection and offset
    arguments. The two programs compute it by the same operations, so it is never opened. -/
def styles (c : Dev nD) : FVec Ideal S8x1024 .f32 :=
  Cert.ReferenceIdeal.Read.val_main_v6 (F := Ideal) (m ((c : Thread nD τ).loc main_arg1)) (m ((c : Thread nD τ).loc main_arg4))
    (m ((c : Thread nD τ).loc main_arg5))

/-- The weight matrix on core `c`, as launched. -/
abbrev weight (c : Dev nD) : FVec Ideal S1024x1024 .f32 := m ((c : Thread nD τ).loc main_arg2)

/-! ## The three prepared arrays as terms of the arguments -/

theorem styles3_eq (c : Dev nD) :
    (V m c main_v15 : S8x1x1024.Idx → EReal) = broadcastInDim S8x1x1024 ![0, 2] bcast_S8x1024_S8x1x1024_0_2 (styles m c) := by
  dsimp only [Gen.V, Gen.hostOps0]
  after_results <;> rfl

theorem weightT_eq (c : Dev nD) :
    (V m c main_v14 : S1024x1024.Idx → EReal)
      = (truncf (F := Ideal) .bf16 (transpose S1024x1024 [1, 0] (weight m c) transposes_S1024x1024_S1024x1024_1_0) bitsLt_bf16_f32 :
          FVec Ideal S1024x1024 .bf16) := by
  dsimp only [Gen.V, Gen.hostOps0]
  after_results <;> rfl

theorem demod3_eq (c : Dev nD) :
    (V m c main_v16 : S8x1x1024.Idx → EReal)
      = broadcastInDim S8x1x1024 ![0, 2] bcast_S8x1024_S8x1x1024_0_2
          (Host.rsqrt (F := Ideal) (addf (Host.dotGeneral (F := Ideal) dot_S8x1024_S1024x1024_S8x1024_1_1_0_0_n_n (some .fp32)
              (mulf (styles m c) (styles m c)) (mulf (weight m c) (weight m c)))
            (broadcastInDim S8x1024 ![] bcast_S_S8x1024 (constant (F := Ideal) S_ .f32 0x322BCC77#32)))) := by
  dsimp only [Gen.V, Gen.hostOps0]
  after_results <;> rfl

/-! ## Read at coordinates -/

/-- An `[8, 1024]` array given a unit middle axis reads, at `(b, u, k)`, the array at `(b, k)`. -/
theorem unit_mid_apply (y : S8x1024.Idx → EReal) (b : Fin 8) (u : Fin 1) (k : Fin 1024) :
    broadcastInDim S8x1x1024 ![0, 2] bcast_S8x1024_S8x1x1024_0_2 y (ix3 b u k) = y (ix2 b k) :=
  broadcastInDim_apply _ bcast_S8x1024_S8x1x1024_0_2 y (ix3 b u k) (ix2 b k) (fun a => match a with
    | ⟨0, _⟩ => by show b.val = if (8 : Nat) = 1 then 0 else b.val; rw [if_neg (by decide)]
    | ⟨1, _⟩ => by show k.val = if (1024 : Nat) = 1 then 0 else k.val; rw [if_neg (by decide)])

/-- The left operand's sample coordinate, in the contraction under the square root, is the output's. -/
theorem sq_lhs_row (i : S8x1024.Idx) (q : dot_S8x1024_S1024x1024_S8x1024_1_1_0_0_n_n.contr.Idx) :
    (dot_S8x1024_S1024x1024_S8x1024_1_1_0_0_n_n.lhsIdx i q 0).val = (i 0).val := by
  unfold DotDims.lhsIdx
  rw [dif_neg (show ¬(0 : Fin S8x1024.rank) ∈ dot_S8x1024_S1024x1024_S8x1024_1_1_0_0_n_n.lhsBatch by decide),
    dif_pos (show (0 : Fin S8x1024.rank) ∈ dot_S8x1024_S1024x1024_S8x1024_1_1_0_0_n_n.lhsNonContracting by decide)]
  rfl

/-- The right operand's row coordinate there is the output's channel. -/
theorem sq_rhs_row (i : S8x1024.Idx) (q : dot_S8x1024_S1024x1024_S8x1024_1_1_0_0_n_n.contr.Idx) :
    (dot_S8x1024_S1024x1024_S8x1024_1_1_0_0_n_n.rhsIdx i q 0).val = (i 1).val := by
  unfold DotDims.rhsIdx
  rw [dif_neg (show ¬(0 : Fin S1024x1024.rank) ∈ dot_S8x1024_S1024x1024_S8x1024_1_1_0_0_n_n.rhsBatch by decide),
    dif_pos (show (0 : Fin S1024x1024.rank) ∈ dot_S8x1024_S1024x1024_S8x1024_1_1_0_0_n_n.rhsNonContracting by decide)]
  rfl

/-- The contraction along the channel axis of both operands, read at `(b, o)`: the sum over `k` of `L[b, k] · R[o, k]`. -/
theorem contract_apply (L : FVec Ideal S8x1024 .f32) (R : FVec Ideal S1024x1024 .f32) (b : Fin 8) (o : Fin 1024) :
    Host.dotGeneral dot_S8x1024_S1024x1024_S8x1024_1_1_0_0_n_n (some .fp32) L R (ix2 b o)
      = ∑ k : Fin 1024, L (ix2 b k) * R (ix2 o k) := by
  simp only [Host.dotGeneral]
  rw [Ideal.dotGeneral_apply,
    ← Equiv.sum_comp (ValueIdx.contrEquiv1 dot_S8x1024_S1024x1024_S8x1024_1_1_0_0_n_n 1024 rfl rfl).symm]
  refine Finset.sum_congr rfl fun k _ => ?_
  have hk := ValueIdx.contrEquiv1_symm_val dot_S8x1024_S1024x1024_S8x1024_1_1_0_0_n_n 1024 rfl rfl k
  have el : dot_S8x1024_S1024x1024_S8x1024_1_1_0_0_n_n.lhsIdx (ix2 b o)
      ((ValueIdx.contrEquiv1 dot_S8x1024_S1024x1024_S8x1024_1_1_0_0_n_n 1024 rfl rfl).symm k) = ix2 b k :=
    funext fun a => Fin.ext (by
      match a with
      | ⟨0, _⟩ => exact sq_lhs_row _ _
      | ⟨1, _⟩ => exact (dot_S8x1024_S1024x1024_S8x1024_1_1_0_0_n_n.lhsIdx_val_of_single rfl _ _).trans hk)
  have er : dot_S8x1024_S1024x1024_S8x1024_1_1_0_0_n_n.rhsIdx (ix2 b o)
      ((ValueIdx.contrEquiv1 dot_S8x1024_S1024x1024_S8x1024_1_1_0_0_n_n 1024 rfl rfl).symm k) = ix2 o k :=
    funext fun a => Fin.ext (by
      match a with
      | ⟨0, _⟩ => exact sq_rhs_row _ _
      | ⟨1, _⟩ => exact (dot_S8x1024_S1024x1024_S8x1024_1_1_0_0_n_n.rhsIdx_val_of_single rfl _ _).trans hk)
  rw [el, er]

/-- The style array as the grid finds it, at `(b, u, k)`. -/
theorem styles3_apply (c : Dev nD) (b : Fin 8) (u : Fin 1) (k : Fin 1024) :
    (V m c main_v15 : S8x1x1024.Idx → EReal) (ix3 b u k) = styles m c (ix2 b k) := by
  rw [styles3_eq, unit_mid_apply]

/-- The transposed weight matrix as the grid finds it, at `(k, o)`: the weight at `(o, k)`. -/
theorem weightT_apply (c : Dev nD) (k o : Fin 1024) :
    (V m c main_v14 : S1024x1024.Idx → EReal) (ix2 k o) = weight m c (ix2 o k) := by
  rw [weightT_eq, truncf_apply, transpose_ix2_apply]

/-- The demodulation coefficients as the grid finds them, at `(b, u, o)`. -/
theorem demod3_apply (c : Dev nD) (b : Fin 8) (u : Fin 1) (o : Fin 1024) :
    (V m c main_v16 : S8x1x1024.Idx → EReal) (ix3 b u o)
      = demod (styles m c) (weight m c) b o := by
  rw [demod3_eq, unit_mid_apply]
  show Ideal.rsqrt (Host.dotGeneral (F := Ideal) dot_S8x1024_S1024x1024_S8x1024_1_1_0_0_n_n (some .fp32)
      (mulf (styles m c) (styles m c)) (mulf (weight m c) (weight m c)) (ix2 b o) + Ideal.ofBits .f32 0x322BCC77#32) = _
  rw [contract_apply]
  rfl

end Cert.KernelIdeal.HostSide

end
-- ==== Proof.Grid.lean ====
/-
  From the grid's steps to the whole result array.

  The grid has 8 × 8 steps. Step `(p, q)` loads sample `p`'s positions `1024·q … 1024·q + 1023` of the activations (all
  channels), sample `p`'s style row and demodulation row, the whole transposed weight matrix and the whole bias, and
  writes back the block of the result at the same sample and positions. Read at row `r` and output channel `o` of its
  block, what a step stores (Payload.lean) over what it finds in the prepared arrays (HostSide.lean) is the layer of
  Spec.lean at `(p, 1024·q + r, o)`: every step writes its block of ONE function of the arguments (`flushed_eq`). The 64
  blocks tile the array — position `l` of sample `b` lies in the block of step `(b, l / 1024)` — so after the run the
  array holds that function everywhere (`final`, `run`).
-/
import proofs.«145355_j30176440222298_2_alg».proof.Proof.Gen.KernelIdeal.Value
import proofs.«145355_j30176440222298_2_alg».proof.Proof.Payload
import proofs.«145355_j30176440222298_2_alg».proof.Proof.HostSide
import Idealize.ShloMosaic.Lib.Pipeline.Value

noncomputable section

namespace Cert.KernelIdeal.Grid

open Cert.KernelIdeal Cert.KernelIdeal.Gen Cert.KernelIdeal.Value Idealize.ShloMosaic Idealize.ShloMosaic.TcCoe Idealize.SL.Sem
open Idealize.ShloMosaic.Pipeline (Dat)
open Idealize.ShloMosaic.ValueIdx Cert.ModulatedDense Cert.KernelIdeal.HostSide Cert.KernelIdeal.Body

variable (m : (ℓ : Loc nD τ sig) → Buf (Elt Ideal) ℓ) (ρ : Dev nD → PrngReg)

theorem hz3 : (![0, 0, 0] : Fin 3 → Nat) = fun _ => 0 := funext fun a => by fin_cases a <;> rfl
theorem hz2 : (![0, 0] : Fin 2 → Nat) = fun _ => 0 := funext fun a => by fin_cases a <;> rfl
theorem hz1 : (![0] : Fin 1 → Nat) = fun _ => 0 := funext fun a => by fin_cases a <;> rfl

/-- What the result array holds after the run, on core `c`: the layer of the activations, the style array, the weight
    matrix and the bias. -/
def result (c : Dev nD) : Buf (Elt Ideal) ((c : Thread nD τ).loc main_v17) :=
  layer (m ((c : Thread nD τ).loc main_arg0)) (styles m c) (weight m c) (m ((c : Thread nD τ).loc main_arg3))

/-! ## Where each step's blocks sit -/

/-- The block indices of the six windows at every step, against the result window's: the activations move with the
    result along sample and position; the style and demodulation rows move with the sample only; the transposed weights
    and the bias stay; the result's block index is (sample ≤ 7, position block ≤ 7, 0). Decided over the 64 steps. -/
theorem idx_facts : ∀ t : Fin cfg0.N,
    win0_0.index t (0 : Fin 3) = win0_5.index t (0 : Fin 3) ∧ win0_0.index t (1 : Fin 3) = win0_5.index t (1 : Fin 3)
    ∧ win0_0.index t (2 : Fin 3) = 0
    ∧ win0_1.index t (0 : Fin 3) = win0_5.index t (0 : Fin 3) ∧ win0_1.index t (1 : Fin 3) = 0 ∧ win0_1.index t (2 : Fin 3) = 0
    ∧ win0_2.index t (0 : Fin 2) = 0 ∧ win0_2.index t (1 : Fin 2) = 0
    ∧ win0_3.index t (0 : Fin 3) = win0_5.index t (0 : Fin 3) ∧ win0_3.index t (1 : Fin 3) = 0 ∧ win0_3.index t (2 : Fin 3) = 0
    ∧ win0_4.index t (0 : Fin 1) = 0
    ∧ win0_5.index t (0 : Fin 3) ≤ 7 ∧ win0_5.index t (1 : Fin 3) ≤ 7 ∧ win0_5.index t (2 : Fin 3) = 0 :=
  (by decide +kernel : ∀ t : Fin grid0.N, _)

/-- Every (sample, position block) is some step's. -/
theorem idx_onto : ∀ (q0 : Fin 8) (q1 : Fin 8), ∃ t : Fin cfg0.N, win0_5.index t = ![q0.val, q1.val, 0] :=
  (by decide +kernel : ∀ (q0 : Fin 8) (q1 : Fin 8), ∃ t : Fin grid0.N, win0_5.index t = ![q0.val, q1.val, 0])

/-! ## What a step finds in its five input blocks -/

/-- The activation block: row `r`, channel `k` is the activations at the step's sample, position block · 1024 + `r`. -/
theorem block_x (c : Dev nD) (t : Fin cfg0.N) (r k : Fin 1024) (b : Fin 8) (l : Fin 8192)
    (hb : b.val = win0_5.index t (0 : Fin 3)) (hl : l.val = win0_5.index t (1 : Fin 3) * 1024 + r.val) :
    (iblk m c 0 t : Vec Ideal S1x1024x1024 .f32) (ix3 (0 : Fin 1) r k)
      = (m ((c : Thread nD τ).loc main_arg0) : S8x8192x1024.Idx → EReal) (ix3 b l k) := by
  obtain ⟨e0, e1, e2, -⟩ := idx_facts t
  unfold iblk
  rw [View.read_apply]
  show V m c main_arg0 _ = _
  rw [V_main_arg0]
  refine congrArg (m ((c : Thread nD τ).loc main_arg0) : S8x8192x1024.Idx → EReal) (funext fun a => Fin.ext ?_)
  match a with
  | ⟨0, _⟩ => show win0_0.index t (0 : Fin 3) * 1 + 1 * 0 = b.val; omega
  | ⟨1, _⟩ => show win0_0.index t (1 : Fin 3) * 1024 + 1 * r.val = l.val; omega
  | ⟨2, _⟩ => show win0_0.index t (2 : Fin 3) * 1024 + 1 * k.val = k.val; omega

/-- The style block: the step's sample's row of the style array. -/
theorem block_s (c : Dev nD) (t : Fin cfg0.N) (k : Fin 1024) (b : Fin 8) (hb : b.val = win0_5.index t (0 : Fin 3)) :
    (iblk m c 1 t : Vec Ideal S1x1x1024 .f32) (ix3 (0 : Fin 1) (0 : Fin 1) k) = styles m c (ix2 b k) := by
  obtain ⟨-, -, -, e0, e1, e2, -⟩ := idx_facts t
  unfold iblk
  rw [View.read_apply, ← styles3_apply m c b (0 : Fin 1) k]
  show (V m c main_v15 : S8x1x1024.Idx → EReal) _ = _
  refine congrArg (V m c main_v15 : S8x1x1024.Idx → EReal) (funext fun a => Fin.ext ?_)
  match a with
  | ⟨0, _⟩ => show win0_1.index t (0 : Fin 3) * 1 + 1 * 0 = b.val; omega
  | ⟨1, _⟩ => show win0_1.index t (1 : Fin 3) * 1 + 1 * 0 = 0; omega
  | ⟨2, _⟩ => show win0_1.index t (2 : Fin 3) * 1024 + 1 * k.val = k.val; omega

/-- The transposed-weight block is the whole array: at `(k, o)` the weight at `(o, k)`. -/
theorem block_T (c : Dev nD) (t : Fin cfg0.N) (k o : Fin 1024) :
    (iblk m c 2 t : Vec Ideal S1024x1024 .bf16) (ix2 k o) = weight m c (ix2 o k) := by
  obtain ⟨-, -, -, -, -, -, e0, e1, -⟩ := idx_facts t
  unfold iblk
  rw [View.read_apply, ← weightT_apply m c k o]
  show (V m c main_v14 : S1024x1024.Idx → EReal) _ = _
  refine congrArg (V m c main_v14 : S1024x1024.Idx → EReal) (funext fun a => Fin.ext ?_)
  match a with
  | ⟨0, _⟩ => show win0_2.index t (0 : Fin 2) * 1024 + 1 * k.val = k.val; omega
  | ⟨1, _⟩ => show win0_2.index t (1 : Fin 2) * 1024 + 1 * o.val = o.val; omega

/-- The demodulation block: the step's sample's row of coefficients. -/
theorem block_d (c : Dev nD) (t : Fin cfg0.N) (o : Fin 1024) (b : Fin 8) (hb : b.val = win0_5.index t (0 : Fin 3)) :
    (iblk m c 3 t : Vec Ideal S1x1x1024 .f32) (ix3 (0 : Fin 1) (0 : Fin 1) o) = demod (styles m c) (weight m c) b o := by
  obtain ⟨-, -, -, -, -, -, -, -, e0, e1, e2, -⟩ := idx_facts t
  unfold iblk
  rw [View.read_apply, ← demod3_apply m c b (0 : Fin 1) o]
  show (V m c main_v16 : S8x1x1024.Idx → EReal) _ = _
  refine congrArg (V m c main_v16 : S8x1x1024.Idx → EReal) (funext fun a => Fin.ext ?_)
  match a with
  | ⟨0, _⟩ => show win0_3.index t (0 : Fin 3) * 1 + 1 * 0 = b.val; omega
  | ⟨1, _⟩ => show win0_3.index t (1 : Fin 3) * 1 + 1 * 0 = 0; omega
  | ⟨2, _⟩ => show win0_3.index t (2 : Fin 3) * 1024 + 1 * o.val = o.val; omega

/-- The bias block is the whole bias. -/
theorem block_β (c : Dev nD) (t : Fin cfg0.N) (o : Fin 1024) :
    (iblk m c 4 t : Vec Ideal S1024 .f32) (ix1 o) = (m ((c : Thread nD τ).loc main_arg3) : S1024.Idx → EReal) (ix1 o) := by
  obtain ⟨-, -, -, -, -, -, -, -, -, -, -, e0, -⟩ := idx_facts t
  unfold iblk
  rw [View.read_apply]
  show V m c main_arg3 _ = _
  rw [V_main_arg3]
  refine congrArg (m ((c : Thread nD τ).loc main_arg3) : S1024.Idx → EReal) (funext fun a => Fin.ext ?_)
  match a with
  | ⟨0, _⟩ => show win0_4.index t (0 : Fin 1) * 1024 + 1 * o.val = o.val; omega

/-! ## Each step writes its block of the layer -/

/-- What step `t` writes back is block `t` of `result`. -/
theorem flushed_eq (c : Dev nD) (t : Fin cfg0.N) :
    (dats m 0 c).flushed 5 t = ((cfg0.win 5).blk t).view.read (Elt Ideal) (result m c) := by
  rw [flushed5]
  unfold out0_5
  rw [View.canon_unit_zero hz3]
  simp only [View.ld_unit_zero (S := S1x1024x1024) hz3, View.ld_unit_zero (S := S1x1x1024) hz3,
    View.ld_unit_zero (S := S1024x1024) hz2, View.ld_unit_zero (S := S1024) hz1]
  obtain ⟨-, -, -, -, -, -, -, -, -, -, -, -, h0, h1, h2⟩ := idx_facts t
  funext j
  obtain ⟨u, r, o, rfl⟩ : ∃ (u : Fin 1) (r o : Fin 1024), j = ix3 u r o := ⟨j 0, j 1, j 2, eq_ix3 j⟩
  -- the array index of the block's `(u, r, o)`: the step's sample, its position block · 1024 + r, and o
  have hemb : ((cfg0.win 5).blk t).view.emb (ix3 u r o)
      = ix3 (⟨win0_5.index t (0 : Fin 3), by omega⟩ : Fin 8)
          (⟨win0_5.index t (1 : Fin 3) * 1024 + r.val, by have := r.isLt; omega⟩ : Fin 8192) o :=
    funext fun a => Fin.ext (by
      match a with
      | ⟨0, _⟩ => show win0_5.index t (0 : Fin 3) * 1 + 1 * u.val = win0_5.index t (0 : Fin 3); have := u.isLt; omega
      | ⟨1, _⟩ => show win0_5.index t (1 : Fin 3) * 1024 + 1 * r.val = win0_5.index t (1 : Fin 3) * 1024 + r.val; omega
      | ⟨2, _⟩ => show win0_5.index t (2 : Fin 3) * 1024 + 1 * o.val = o.val; omega)
  show k0_pay1 (iblk m c 0 t) (iblk m c 1 t) (iblk m c 2 t) (iblk m c 3 t) (iblk m c 4 t) (ix3 u r o)
      = (result m c : S8x8192x1024.Idx → EReal) (((cfg0.win 5).blk t).view.emb (ix3 u r o))
  rw [hemb]
  unfold result
  exact stored_eq_layer (iblk m c 0 t) (iblk m c 1 t) (iblk m c 2 t) (iblk m c 3 t) (iblk m c 4 t)
    (m ((c : Thread nD τ).loc main_arg0)) (styles m c) (weight m c) (m ((c : Thread nD τ).loc main_arg3)) u r o
    (⟨win0_5.index t (0 : Fin 3), by omega⟩ : Fin 8)
    (⟨win0_5.index t (1 : Fin 3) * 1024 + r.val, by have := r.isLt; omega⟩ : Fin 8192)
    (fun k => block_x m c t r k _ _ rfl rfl) (fun k => block_s m c t k _ rfl) (fun k => block_T m c t k o)
    (block_d m c t o _ rfl) (block_β m c t o)

/-! ## The blocks tile the array -/

/-- An index of the array is in step `t`'s block iff each coordinate is in the block's range on its axis. -/
theorem mem_blk (t : Fin cfg0.N) (i : S8x8192x1024.Idx) :
    i ∈ ((cfg0.win 5).blk t).view.set ↔ ∀ a : Fin 3, win0_5.index t a * S1x1024x1024.size a ≤ (i a).val
      ∧ (i a).val < win0_5.index t a * S1x1024x1024.size a + S1x1024x1024.size a := by
  show i ∈ ((View.whole main_v17).slice (win0_5.rect t)).set ↔ _
  rw [View.set_slice_whole, Rect.mem_set_unit]
  exact Iff.rfl

/-- Every index is in the block of the step at its sample and position block `l / 1024`. -/
theorem cover (i : S8x8192x1024.Idx) :
    ∃ t : Fin cfg0.N, (cfg0.win 5).flush t = true ∧ i ∈ ((cfg0.win 5).blk t).view.set := by
  have hi0 : (i 0).val < 8 := (i 0).isLt
  have hi1 : (i 1).val < 8192 := (i 1).isLt
  have hi2 : (i 2).val < 1024 := (i 2).isLt
  obtain ⟨t, ht⟩ := idx_onto ⟨(i 0).val, hi0⟩ ⟨(i 1).val / 1024, by omega⟩
  have q0 : win0_5.index t (0 : Fin 3) = (i 0).val := congrFun ht 0
  have q1 : win0_5.index t (1 : Fin 3) = (i 1).val / 1024 := congrFun ht 1
  have q2 : win0_5.index t (2 : Fin 3) = 0 := congrFun ht 2
  refine ⟨t, flush0_5 t, ?_⟩
  rw [mem_blk]
  intro a
  match a with
  | ⟨0, _⟩ => show win0_5.index t (0 : Fin 3) * 1 ≤ (i 0).val ∧ (i 0).val < win0_5.index t (0 : Fin 3) * 1 + 1; omega
  | ⟨1, _⟩ => show win0_5.index t (1 : Fin 3) * 1024 ≤ (i 1).val ∧ (i 1).val < win0_5.index t (1 : Fin 3) * 1024 + 1024; omega
  | ⟨2, _⟩ => show win0_5.index t (2 : Fin 3) * 1024 ≤ (i 2).val ∧ (i 2).val < win0_5.index t (2 : Fin 3) * 1024 + 1024; omega

/-- So after the run the result array holds `result`. -/
theorem final (c : Dev nD) : (dats m 0 c).arrAt 5 cfg0.N = result m c :=
  (dats m 0 c).arrAt_eq_of_cover 5 (result m c) (fun t _ => flushed_eq m c t) (fun i => cover i)

/-- The run, read: every weakly fair execution ends with the result array at the layer of the arguments, the arguments
    unchanged. -/
theorem run : θ_run defs (onTc (τ := τ) (main (F := Ideal))) ⟨m, fun _ => 0, ρ⟩ fun r => ∀ c : Dev nD,
      r.2.mem ((c : Thread nD τ).loc main_v17) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨(h c).1.trans (final m c), (h c).2⟩) (Value.run_blocks m ρ)

end Cert.KernelIdeal.Grid

end
-- ==== Proof.lean ====
/-
  A modulated dense layer with demodulation, as a tiled TPU kernel, against its plain array-language reference.

  Both programs take activations `x[b, l, c]` (8 × 8192 × 1024), latent vectors, a weight matrix `w[o, c]`, a bias and the
  parameters of an affine style projection. Both first compute the style array `s[b, c]` by the same chain of operations
  (the same scale constant, word for word), and then

      y[b, l, o] = clamp( (Σ_c (x[b,l,c] · s[b,c]) · w[o,c]) · d[b,o] + bias[o],  -256, 256 ),
      d[b, o]    = rsqrt( Σ_c s[b,c]² · w[o,c]² + ε ).

  The tiled program prepares `s`, the transposed weights and `d` ahead of its grid — computing the sum under the square
  root as a contraction of the squared styles with the squared weights — and each of its 8 × 8 grid steps produces 1024
  positions of one sample from a rounded-to-narrower-format product, which on extended reals is the exact product. The
  reference forms the products `w[o,c] · s[b,c]`, squares them and adds the squares up from zero, and contracts the
  modulated activations with the weights in one operation over the whole array.

  On extended reals the two results are equal index by index: the narrowing conversions are the identity, a product into a
  zero accumulator and the reference's contraction are the same sum over the channel, and the two arrangements of the sum
  under the square root agree because multiplication is commutative and associative (Spec.lean, `sum_sq_of_prod`) — a law
  that holds at the infinities too, so the finiteness of the inputs is never used. No operation of the kernel was
  rewritten on the way to its reading on extended reals, so that reading is the kernel's own text and there is nothing to
  preserve.

  Modules: Spec (the layer, the law) · RefValue (the reference computes the layer) · Payload (what one grid step stores) ·
  HostSide (what the grid finds in the prepared arrays) · Grid (each step writes its block of the layer; the blocks tile
  the array; the run) · this file (the three frames and the two claims).
-/
import proofs.«145355_j30176440222298_2_alg».proof.Defs
import proofs.«145355_j30176440222298_2_alg».proof.Proof.Gen.Kernel
import proofs.«145355_j30176440222298_2_alg».proof.Proof.Gen.Kernel.Skeleton
import proofs.«145355_j30176440222298_2_alg».proof.Proof.Gen.Kernel.Launch
import proofs.«145355_j30176440222298_2_alg».proof.Proof.Gen.Kernel.Points
import proofs.«145355_j30176440222298_2_alg».proof.Proof.Gen.Kernel.Frame
import proofs.«145355_j30176440222298_2_alg».proof.Proof.Gen.KernelIdeal
import proofs.«145355_j30176440222298_2_alg».proof.Proof.Gen.KernelIdeal.Skeleton
import proofs.«145355_j30176440222298_2_alg».proof.Proof.Gen.KernelIdeal.Launch
import proofs.«145355_j30176440222298_2_alg».proof.Proof.Gen.KernelIdeal.Points
import proofs.«145355_j30176440222298_2_alg».proof.Proof.Gen.KernelIdeal.Frame
import proofs.«145355_j30176440222298_2_alg».proof.Proof.Gen.ReferenceIdeal
import proofs.«145355_j30176440222298_2_alg».proof.Proof.Gen.Pre_finite_inputs
import proofs.«145355_j30176440222298_2_alg».proof.Proof.Gen.KernelIdeal.Value
import proofs.«145355_j30176440222298_2_alg».proof.Proof.Gen.ReferenceIdeal.Run
import proofs.«145355_j30176440222298_2_alg».proof.Proof.Gen.ReferenceIdeal.Read
import proofs.«145355_j30176440222298_2_alg».proof.Proof.RefValue
import proofs.«145355_j30176440222298_2_alg».proof.Proof.Grid
import Idealize.ShloMosaic.Adequacy
import Idealize.ShloMosaic.Init

noncomputable section

namespace Cert.Proof

open Idealize.ShloMosaic Idealize.ShloMosaic.TcCoe Idealize.SL.Sem

/-- The kernel as printed runs to the end without a fault and leaves its arguments as they were. -/
theorem frame_kernel : Cert.frame_Kernel := fun m ρ _ => Cert.Kernel.Gen.frame m ρ

/-- So does the kernel read on extended reals. -/
theorem frame_kernelIdeal : Cert.frame_KernelIdeal := fun m ρ _ => Cert.KernelIdeal.Gen.frame m ρ

/-- So does the reference: its run, with what it says about the result dropped. -/
theorem frame_reference : Cert.frame_ReferenceIdeal := fun m ρ _ =>
  (θ_run Cert.ReferenceIdeal.defs _ _).mono (fun _ h c => (h c).2) (Cert.ReferenceIdeal.Value.run (F := Ideal) m ρ)

/-- No operation was rewritten on the way to the idealized kernel. -/
theorem preserves : Cert.preserves_Kernel_KernelIdeal := trivial

/-- From memories agreeing on the arguments both programs end with the result array at the layer of the arguments: the
    kernel by its grid (Grid.lean), the reference by its run read operation by operation (RefValue.lean); the style array
    inside both is the same stage of the same arguments. -/
theorem algebraic : Cert.algebraic_KernelIdeal_ReferenceIdeal := by
  intro m ρ m' ρ' _ hagree
  refine ⟨fun c => Cert.KernelIdeal.Grid.result m c, Cert.KernelIdeal.Grid.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v27_eq, Cert.ReferenceIdeal.RefValue.result_eq_layer, (hagree c).1, (hagree c).2.1,
    (hagree c).2.2.1, (hagree c).2.2.2.1, (hagree c).2.2.2.2.1, (hagree c).2.2.2.2.2]
  rfl

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
